-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S8192x768 : Shape := ⟨2, ![8192, 768]⟩
abbrev S3840x64 : Shape := ⟨2, ![3840, 64]⟩
abbrev S64 : Shape := ⟨1, ![64]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S3840x64 : S_.BroadcastsInDim S3840x64 (![] : Fin 0 → Fin S3840x64.rank)
  reducesTo_S3840x64_S_d0_1 : S3840x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8192x3072 .f32) (main_arg1 : FVec F S8192x768 .f32) (main_arg2 : FVec F S3840x64 .f32) (main_arg3 : FVec F S64 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S3840x64 .f32 := Host.absf main_arg2
  let main_cst_2 : FVec F S_ .f32 := constant S_ .f32 0x7F800000#32
  let main_v10 : FVec F S3840x64 .f32 := broadcastInDim S3840x64 ![] bcast_S_S3840x64 main_cst_2
  let main_v11 : IVec S3840x64 1 := cmpf .olt main_v9 main_v10
  let main_c_3 : IVec S_ 1 := constantI S_ 1 1#1
  let main_v12 : IVec S_ 1 := (fun x v => Host.reduce IntOp.andi x v reducesTo_S3840x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8192x3072 : Shape := ⟨2, ![8192, 3072]⟩
abbrev S8192x768 : Shape := ⟨2, ![8192, 768]⟩
abbrev S3840x64 : Shape := ⟨2, ![3840, 64]⟩
abbrev S64 : Shape := ⟨1, ![64]⟩
abbrev S1x64 : Shape := ⟨2, ![1, 64]⟩
abbrev S8192x64 : Shape := ⟨2, ![8192, 64]⟩
abbrev S512x3072 : Shape := ⟨2, ![512, 3072]⟩
abbrev S512x768 : Shape := ⟨2, ![512, 768]⟩
abbrev S1024x64 : Shape := ⟨2, ![1024, 64]⟩
abbrev S3072x64 : Shape := ⟨2, ![3072, 64]⟩
abbrev S512x64 : Shape := ⟨2, ![512, 64]⟩
abbrev S768x64 : Shape := ⟨2, ![768, 64]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x3072, .f32⟩
  | .hbm, ⟨1, _⟩ => ⟨S8192x768, .f32⟩
  | .hbm, ⟨2, _⟩ => ⟨S3840x64, .f32⟩
  | .hbm, ⟨3, _⟩ => ⟨S64, .f32⟩
  | .hbm, ⟨4, _⟩ => ⟨S1x64, .f32⟩
  | .hbm, ⟨5, _⟩ => ⟨S8192x64, .f32⟩
  | .local _ .vmem, ⟨0, _⟩ => ⟨S512x3072, .f32⟩
  | .local _ .vmem, ⟨1, _⟩ => ⟨S512x3072, .f32⟩
  | .local _ .vmem, ⟨2, _⟩ => ⟨S512x3072, .f32⟩
  | .local _ .vmem, ⟨3, _⟩ => ⟨S512x3072, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S3840x64, .f32⟩
  | .local _ .vmem, ⟨9, _⟩ => ⟨S1x64, .f32⟩
  | .local _ .vmem, ⟨10, _⟩ => ⟨S1024x64, .f32⟩
  | .local _ .vmem, ⟨11, _⟩ => ⟨S1024x64, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3840x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  inb_S512x3072_S512x3072_0_0 : ∀ a, (![0, 0] : Fin 2 → Nat) a + S512x3072.size a ≤ S512x3072.size a
  h_S512x3072 : 0 < S512x3072.numel
  inb_S3840x64_S3072x64_0_0 : ∀ a, (![0, 0] : Fin 2 → Nat) a + S3072x64.size a ≤ S3840x64.size a
  h_S3072x64 : 0 < S3072x64.numel
  inb_S512x768_S512x768_0_0 : ∀ a, (![0, 0] : Fin 2 → Nat) a + S512x768.size a ≤ S512x768.size a
  h_S512x768 : 0 < S512x768.numel
  inb_S3840x64_S768x64_3072_0 : ∀ a, (![3072, 0] : Fin 2 → Nat) a + S768x64.size a ≤ S3840x64.size a
  h_S768x64 : 0 < S768x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  inb_S1024x64_S512x64_0_0 : ∀ a, (![0, 0] : Fin 2 → Nat) a + S512x64.size a ≤ S1024x64.size a
  h_S512x64 : 0 < S512x64.numel
  inb_S1024x64_S512x64_512_0 : ∀ a, (![512, 0] : Fin 2 → Nat) a + S512x64.size a ≤ S1024x64.size a
  dot_S512x3072_S3072x64_S512x64_1_0_0_1_n_n_wf : DotDims.WF S512x3072 S3072x64 S512x64 [1] [0] [0] [1] [] []
  dot_S512x768_S768x64_S512x64_1_0_0_1_n_n_wf : DotDims.WF S512x768 S768x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .f32 = 32 ∨ (Rect.block (s := S8192x3072) S512x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3072.size a ≤ S8192x3072.size a
  hwx0_1 : ∀ i : grid0.Coords, EltTy.bits .f32 = 32 ∨ (Rect.block (s := S8192x3072) S512x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S8192x768.size a
  hwx0_2 : ∀ i : grid0.Coords, EltTy.bits .f32 = 32 ∨ (Rect.block (s := S8192x768) S512x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S8192x768.size a
  hwx0_3 : ∀ i : grid0.Coords, EltTy.bits .f32 = 32 ∨ (Rect.block (s := S8192x768) S512x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3840x64.size a ≤ S3840x64.size a
  hwx0_4 : ∀ i : grid0.Coords, EltTy.bits .f32 = 32 ∨ (Rect.block (s := S3840x64) S3840x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S8192x64.size a
  hwx0_6 : ∀ i : grid0.Coords, EltTy.bits .f32 = 32 ∨ (Rect.block (s := S8192x64) S1024x64.size (cc0_transform_6 i) (hinb0_6 i)).WholeWords (EltTy.packing .f32)

variable [Facts₀]

def dot_S512x3072_S3072x64_S512x64_1_0_0_1_n_n : DotDims S512x3072 S3072x64 S512x64 where
  lhsContracting := [1]
  rhsContracting := [0]
  lhsNonContracting := [0]
  rhsNonContracting := [1]
  lhsBatch := []
  rhsBatch := []
  wf := dot_S512x3072_S3072x64_S512x64_1_0_0_1_n_n_wf
def dot_S512x768_S768x64_S512x64_1_0_0_1_n_n : DotDims S512x768 S768x64 S512x64 where
  lhsContracting := [1]
  rhsContracting := [0]
  lhsNonContracting := [0]
  rhsNonContracting := [1]
  lhsBatch := []
  rhsBatch := []
  wf := dot_S512x768_S768x64_S512x64_1_0_0_1_n_n_wf

abbrev win0_0 : Pipeline.Window sig grid0 :=
  Pipeline.Window.ofSpec (Memref.whole main_arg0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S3840x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x3072 : Shape := ⟨2, ![8192, 3072]⟩
abbrev S8192x768 : Shape := ⟨2, ![8192, 768]⟩
abbrev S3840x64 : Shape := ⟨2, ![3840, 64]⟩
abbrev S64 : Shape := ⟨1, ![64]⟩
abbrev S8192x3840 : Shape := ⟨2, ![8192, 3840]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x768, .f32⟩
  | .hbm, ⟨2, _⟩ => ⟨S3840x64, .f32⟩
  | .hbm, ⟨3, _⟩ => ⟨S64, .f32⟩
  | .hbm, ⟨4, _⟩ => ⟨S8192x3840, .f32⟩
  | .hbm, ⟨5, _⟩ => ⟨S8192x64, .f32⟩
  | .hbm, ⟨6, _⟩ => ⟨S1x64, .f32⟩
  | .hbm, ⟨7, _⟩ => ⟨S8192x64, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x64, .f32⟩
  | .hbm, ⟨22, _⟩ => ⟨S8192x64, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  concatenates_S8192x3072_S8192x768_S8192x3840_d1 : Shape.Concatenates [S8192x3072, S8192x768] S8192x3840 1
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x3840_S3840x64_S8192x64_1_0_0_1_n_n_wf : DotDims.WF S8192x3840 S3840x64 S8192x64 [1] [0] [0] [1] [] []

variable [Facts₀]

def dot_S8192x3840_S3840x64_S8192x64_1_0_0_1_n_n : DotDims S8192x3840 S3840x64 S8192x64 where
  lhsContracting := [1]
  rhsContracting := [0]
  lhsNonContracting := [0]
  rhsNonContracting := [1]
  lhsBatch := []
  rhsBatch := []
  wf := dot_S8192x3840_S3840x64_S8192x64_1_0_0_1_n_n_wf

class Facts : Prop extends Facts₀ where

variable [Facts]
-- ==== Proof.LibSharedFrame.lean ====
/-
  The frame run of a one-region pipeline whose INPUT windows may share arrays.

  A pipelined kernel may be handed one array through several input windows (two half-blocks of the same rows, say).
  The launch then cannot give every window its array at the full share: the one buffer behind the shared array is
  dealt among the windows on it, each holding a part of the share, enough to read. This file states the frame run for
  that situation once, for any such pipeline: given the proof data, the body obligation at every point, the program's
  shape up to the region, and the way the buffers behind the arrays (each whole, at the full share, at the region-entry
  contents) are dealt into the proof data's shares, every weakly fair execution terminates and ends with every
  window's array at what the write-backs leave (`Dat.arrAt … N`) and every other unscoped buffer as the region found it.

  The body's invariant is the core's scoped buffers that are no staging buffer, at some contents: enough for a body
  that keeps nothing of its own between points and does not draw random bits.
-/
import Idealize.ShloMosaic.Lib.Pipeline.Frame

noncomputable section

namespace Idealize.ShloMosaic.Pipeline.SharedFrame

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The invariant of a body that keeps nothing between points: the scoped buffers that are no staging buffer. -/
abbrev ΦS {gr : Nat} {W : Nat} (win : Fin W → WinSpec sig gr) (c : Dev nD) : sProp 𝕄 :=
  scopedRest (Ix := Unit) (Name := ℕ) (U := UR sig nD τ) (Lvl := ℕ) (Val := Val) win c

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- THE FRAME RUN when input windows share arrays: `hsplit` says how the buffers behind the arrays, each whole at the
    full share at the region-entry contents `V`, make the proof data's arrays at their shares. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = ΦS (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => by
      rw [hΦ]
      iintro ⟨-, HR⟩; iexact HR)
    (hout := fun c => by
      rw [hΦ]
      iintro HR
      isplitr; · iempintro
      iexact HR)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline.SharedFrame

end
-- ==== Proof.KernelLaunch.lean ====
/-
  The launch of the gating kernel, at any float instance.

  The kernel is one pipelined region on a grid of 8 points. Point t reads rows 1024 t … 1024 t + 1023 of x and of z as
  two half-blocks of 512 rows each (four input windows: two on the array x, two on the array z), the whole weight matrix
  and the bias row once, and writes back a block of 1024 rows of the result, every point. Before the region @main
  reshapes the bias vector into a row.

  Two windows read one array, so the array's buffer is dealt between them: each holds half of the share, enough to be
  fetched from. With that split, the body's run on the staging buffers, and the general frame run for shared arrays,
  every weakly fair execution terminates with the arguments unchanged, and the result array holds, block by block, what
  the body stored: the lower 512 rows from the first half-blocks and the upper 512 rows from the second.
-/
import proofs.«109027_g46437186404428_cont_8to1_c_839_19_alg».proof.Proof.Gen.Kernel.Launch
import proofs.«109027_g46437186404428_cont_8to1_c_839_19_alg».proof.Proof.Gen.Kernel.Skeleton
import proofs.«109027_g46437186404428_cont_8to1_c_839_19_alg».proof.Proof.Gen.Kernel.Points
import proofs.«109027_g46437186404428_cont_8to1_c_839_19_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one reshape of the bias. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: an argument array is found as launched. -/
theorem V_arg (b : Ref sig .tc) (hb : b ≠ main_v0) (c : Dev nD) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles -/

abbrev rX : Rect S512x3072 := Rect.unit (s := S512x3072) ![0, 0] S512x3072.size Facts₀.inb_S512x3072_S512x3072_0_0
abbrev rZ : Rect S512x768 := Rect.unit (s := S512x768) ![0, 0] S512x768.size Facts₀.inb_S512x768_S512x768_0_0
abbrev rWx : Rect S3840x64 := Rect.unit (s := S3840x64) ![0, 0] S3072x64.size Facts₀.inb_S3840x64_S3072x64_0_0
abbrev rWz : Rect S3840x64 := Rect.unit (s := S3840x64) ![3072, 0] S768x64.size Facts₀.inb_S3840x64_S768x64_3072_0
abbrev rB : Rect S1x64 := Rect.unit (s := S1x64) ![0, 0] S1x64.size Facts₀.inb_S1x64_S1x64_0_0
abbrev rLo : Rect S1024x64 := Rect.unit (s := S1024x64) ![0, 0] S512x64.size Facts₀.inb_S1024x64_S512x64_0_0
abbrev rHi : Rect S1024x64 := Rect.unit (s := S1024x64) ![512, 0] S512x64.size Facts₀.inb_S1024x64_S512x64_512_0

/-! ## What the body leaves in the output window's buffer -/

/-- The output buffer after the body: rows 512… from the second half-blocks, rows 0…511 from the first (the later
    store listed first). -/
def out0_6 (x0 x1 : Vec F S512x3072 .f32) (x2 x3 : Vec F S512x768 .f32) (x4 : Vec F S3840x64 .f32) (x5 : Vec F S1x64 .f32) :
    Vec F S1024x64 .f32 :=
  View.canon [⟨rHi, k0_pay1 (k0_pay3 (View.ld x1 rX) (View.ld x4 rWx) (View.ld x3 rZ) (View.ld x4 rWz)) (k0_pay4 (View.ld x5 rB))⟩,
    ⟨rLo, k0_pay2 (View.ld x0 rX) (View.ld x4 rWx) (View.ld x2 rZ) (View.ld x4 rWz) (View.ld x5 rB)⟩]

/-- The two stores tile the buffer. -/
theorem cover0_6 (p0 p1 : Vec F S512x64 .f32) (y : S1024x64.Idx) :
    ∃ pc ∈ ([⟨rHi, p0⟩, ⟨rLo, p1⟩] : List (View.Piece (Elt F) S1024x64 .f32)), y ∈ pc.1.set :=
  View.cover_of_tiled [⟨rHi, p0⟩, ⟨rLo, p1⟩] S512x64.size (by rfl) y

/-! ## The body's triple -/

set_option maxHeartbeats 4000000 in
/-- On whole staging buffers — the six inputs' at their contents, the output's at anything — the body runs to the
    continuation with the inputs as they were and the output at `out0_6` of them. -/
theorem sound_kernel (c : Dev nD) (E : Set ℕ) (i : grid0.Coords)
    (arg1 : Memref sig .tc .vmem S512x3072 .f32) (harg1 : arg1.IsWhole) (arg2 : Memref sig .tc .vmem S512x3072 .f32) (harg2 : arg2.IsWhole)
    (arg3 : Memref sig .tc .vmem S512x768 .f32) (harg3 : arg3.IsWhole) (arg4 : Memref sig .tc .vmem S512x768 .f32) (harg4 : arg4.IsWhole)
    (arg5 : Memref sig .tc .vmem S3840x64 .f32) (harg5 : arg5.IsWhole) (arg6 : Memref sig .tc .vmem S1x64 .f32) (harg6 : arg6.IsWhole)
    (arg7 : Memref sig .tc .vmem S1024x64 .f32) (harg7 : arg7.IsWhole)
    (x0 x1 : Vec F S512x3072 .f32) (x2 x3 : Vec F S512x768 .f32) (x4 : Vec F S3840x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gate_kernel i arg1 harg1 arg2 harg2 arg3 harg3 arg4 harg4 arg5 harg5 arg6 harg6 arg7 harg7) K := by
  simp only [cc0__gate_kernel_eq_skeleton]; unfold cc0__gate_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _ _)

/-! ## The proof data -/

/-- The proof data on core `c`: the arrays as the region finds them; after the body each input's buffer still at its
    block and the output's at `out0_6` of the six blocks; nothing kept between points but the scoped rest; nothing owed.
    The shares: the two windows on x hold its two halves, the two on z likewise, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.SharedFrame.ΦS spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out0_6 (iblk m c 0 t) (iblk m c 1 t) (iblk m c 2 t) (iblk m c 3 t) (iblk m c 4 t) (iblk m c 5 t) := by dsimp only [dats]

/-- Each input's current staging buffer holds its block at every point, fetched there or not: unfetched, the block
    index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The arrays' buffers dealt into the windows' shares -/

/-- The five buffers behind the seven windows' arrays, each whole at the full share, make the windows' arrays at their
    shares: the buffer of x is split into its two halves for the two windows on it, the buffer of z likewise, and
    the weights, the bias row and the result go whole to their one window each. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0, bigSep_eq_bigSepL_of_eq [main_arg0, main_arg1, main_arg2, main_v0, main_v1] (by decide) (by decide)]
  simp only [bigSepL_cons_cons, bigSepL_singleton]
  have s0 : (dats m 0 c).share 0 = fullShare.left := rfl
  have s1 : (dats m 0 c).share 1 = fullShare.right := rfl
  have s2 : (dats m 0 c).share 2 = fullShare.left := rfl
  have s3 : (dats m 0 c).share 3 = fullShare.right := rfl
  have s4 : (dats m 0 c).share 4 = fullShare := rfl
  have s5 : (dats m 0 c).share 5 = fullShare := rfl
  have s6 : (dats m 0 c).share 6 = fullShare := rfl
  rw [s0, s1, s2, s3, s4, s5, s6]
  simp only [show ∀ w, (dats m 0 c).arrAt w 0 = (dats m 0 c).A w from fun _ => rfl, A_eq, View.set_whole]
  refine (show iprop((((c : Thread nD τ).loc main_arg0) ↦{fullShare} V m c main_arg0) ∗ (((c : Thread nD τ).loc main_arg1) ↦{fullShare} V m c main_arg1)
      ∗ (((c : Thread nD τ).loc main_arg2) ↦{fullShare} V m c main_arg2) ∗ (((c : Thread nD τ).loc main_v0) ↦{fullShare} V m c main_v0)
      ∗ (((c : Thread nD τ).loc main_v1) ↦{fullShare} V m c main_v1)) ⊢ _ from ?_)
  iintro ⟨Hx, Hz, Hw, Hb, Ho⟩
  ihave Hx' := (pointsTo_share (PosShare.mem_left_op_right fullShare)).1 $$ Hx
  icases Hx' with ⟨Hxl, Hxr⟩
  ihave Hz' := (pointsTo_share (PosShare.mem_left_op_right fullShare)).1 $$ Hz
  icases Hz' with ⟨Hzl, Hzr⟩
  isplitl [Hxl]; · iexact Hxl
  isplitl [Hxr]; · iexact Hxr
  isplitl [Hzl]; · iexact Hzl
  isplitl [Hzr]; · iexact Hzr
  isplitl [Hw]; · iexact Hw
  isplitl [Hb]; · iexact Hb
  iexact Ho

/-! ## The run and the frame -/

set_option backward.isDefEq.respectTransparency.types false in
/-- Every weakly fair execution of @main terminates, and every final state has each window's array at what the
    write-backs leave and every other unscoped buffer as the region found it. -/
theorem run_main : θ_run defs (onTc (τ := τ) (main (F := F))) (s₀ m ρ) (Pipeline.FramePost cfgs (dats m) 0 (V m)) :=
  Pipeline.SharedFrame.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- After the run the result array is what the eight write-backs leave of it. -/
theorem post_result (r : PUnit × MemSt nD τ sig (Elt F)) (h : Pipeline.FramePost cfgs (dats m) 0 (V m) r) (c : Dev nD) :
    r.2.mem ((c : Thread nD τ).loc main_v1) = (dats m 0 c).arrAt 6 cfg0.N :=
  (h c).1 6

/-- After the run x is as launched: an input window stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_arg m main_arg0 (by decide) c)))
/-- z likewise. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_arg m main_arg1 (by decide) c)))
/-- The weights likewise. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_arg m main_arg2 (by decide) c)))
/-- The bias vector is no window's array (the region reads its reshaped copy): it bypasses the region. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_arg m main_arg3 (by decide) c)

/-- The run with the result array named and the four arguments unchanged. -/
theorem run_blocks : θ_run defs (onTc (τ := τ) (main (F := F))) ⟨m, fun _ => 0, ρ⟩ fun r => ∀ c : Dev nD,
      r.2.mem ((c : Thread nD τ).loc main_v1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post_result m r h c, kept_main_arg0 m r h c, kept_main_arg1 m r h c,
      kept_main_arg2 m r h c, kept_main_arg3 m r h c⟩) (run_main m ρ)

/-- THE FRAME: the program runs to the end, faults nowhere, and leaves its four arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_blocks m ρ)

end Cert.Kernel.Launched

end
-- ==== Proof.KernelIdealLaunch.lean ====
/-
  The launch of the gating kernel, at any float instance.

  The kernel is one pipelined region on a grid of 8 points. Point t reads rows 1024 t … 1024 t + 1023 of x and of z as
  two half-blocks of 512 rows each (four input windows: two on the array x, two on the array z), the whole weight matrix
  and the bias row once, and writes back a block of 1024 rows of the result, every point. Before the region @main
  reshapes the bias vector into a row.

  Two windows read one array, so the array's buffer is dealt between them: each holds half of the share, enough to be
  fetched from. With that split, the body's run on the staging buffers, and the general frame run for shared arrays,
  every weakly fair execution terminates with the arguments unchanged, and the result array holds, block by block, what
  the body stored: the lower 512 rows from the first half-blocks and the upper 512 rows from the second.
-/
import proofs.«109027_g46437186404428_cont_8to1_c_839_19_alg».proof.Proof.Gen.KernelIdeal.Launch
import proofs.«109027_g46437186404428_cont_8to1_c_839_19_alg».proof.Proof.Gen.KernelIdeal.Skeleton
import proofs.«109027_g46437186404428_cont_8to1_c_839_19_alg».proof.Proof.Gen.KernelIdeal.Points
import proofs.«109027_g46437186404428_cont_8to1_c_839_19_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one reshape of the bias. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: an argument array is found as launched. -/
theorem V_arg (b : Ref sig .tc) (hb : b ≠ main_v0) (c : Dev nD) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles -/

abbrev rX : Rect S512x3072 := Rect.unit (s := S512x3072) ![0, 0] S512x3072.size Facts₀.inb_S512x3072_S512x3072_0_0
abbrev rZ : Rect S512x768 := Rect.unit (s := S512x768) ![0, 0] S512x768.size Facts₀.inb_S512x768_S512x768_0_0
abbrev rWx : Rect S3840x64 := Rect.unit (s := S3840x64) ![0, 0] S3072x64.size Facts₀.inb_S3840x64_S3072x64_0_0
abbrev rWz : Rect S3840x64 := Rect.unit (s := S3840x64) ![3072, 0] S768x64.size Facts₀.inb_S3840x64_S768x64_3072_0
abbrev rB : Rect S1x64 := Rect.unit (s := S1x64) ![0, 0] S1x64.size Facts₀.inb_S1x64_S1x64_0_0
abbrev rLo : Rect S1024x64 := Rect.unit (s := S1024x64) ![0, 0] S512x64.size Facts₀.inb_S1024x64_S512x64_0_0
abbrev rHi : Rect S1024x64 := Rect.unit (s := S1024x64) ![512, 0] S512x64.size Facts₀.inb_S1024x64_S512x64_512_0

/-! ## What the body leaves in the output window's buffer -/

/-- The output buffer after the body: rows 512… from the second half-blocks, rows 0…511 from the first (the later
    store listed first). -/
def out0_6 (x0 x1 : Vec F S512x3072 .f32) (x2 x3 : Vec F S512x768 .f32) (x4 : Vec F S3840x64 .f32) (x5 : Vec F S1x64 .f32) :
    Vec F S1024x64 .f32 :=
  View.canon [⟨rHi, k0_pay1 (k0_pay3 (View.ld x1 rX) (View.ld x4 rWx) (View.ld x3 rZ) (View.ld x4 rWz)) (k0_pay4 (View.ld x5 rB))⟩,
    ⟨rLo, k0_pay2 (View.ld x0 rX) (View.ld x4 rWx) (View.ld x2 rZ) (View.ld x4 rWz) (View.ld x5 rB)⟩]

/-- The two stores tile the buffer. -/
theorem cover0_6 (p0 p1 : Vec F S512x64 .f32) (y : S1024x64.Idx) :
    ∃ pc ∈ ([⟨rHi, p0⟩, ⟨rLo, p1⟩] : List (View.Piece (Elt F) S1024x64 .f32)), y ∈ pc.1.set :=
  View.cover_of_tiled [⟨rHi, p0⟩, ⟨rLo, p1⟩] S512x64.size (by rfl) y

/-! ## The body's triple -/

set_option maxHeartbeats 4000000 in
/-- On whole staging buffers — the six inputs' at their contents, the output's at anything — the body runs to the
    continuation with the inputs as they were and the output at `out0_6` of them. -/
theorem sound_kernel (c : Dev nD) (E : Set ℕ) (i : grid0.Coords)
    (arg1 : Memref sig .tc .vmem S512x3072 .f32) (harg1 : arg1.IsWhole) (arg2 : Memref sig .tc .vmem S512x3072 .f32) (harg2 : arg2.IsWhole)
    (arg3 : Memref sig .tc .vmem S512x768 .f32) (harg3 : arg3.IsWhole) (arg4 : Memref sig .tc .vmem S512x768 .f32) (harg4 : arg4.IsWhole)
    (arg5 : Memref sig .tc .vmem S3840x64 .f32) (harg5 : arg5.IsWhole) (arg6 : Memref sig .tc .vmem S1x64 .f32) (harg6 : arg6.IsWhole)
    (arg7 : Memref sig .tc .vmem S1024x64 .f32) (harg7 : arg7.IsWhole)
    (x0 x1 : Vec F S512x3072 .f32) (x2 x3 : Vec F S512x768 .f32) (x4 : Vec F S3840x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gate_kernel i arg1 harg1 arg2 harg2 arg3 harg3 arg4 harg4 arg5 harg5 arg6 harg6 arg7 harg7) K := by
  simp only [cc0__gate_kernel_eq_skeleton]; unfold cc0__gate_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _ _)

/-! ## The proof data -/

/-- The proof data on core `c`: the arrays as the region finds them; after the body each input's buffer still at its
    block and the output's at `out0_6` of the six blocks; nothing kept between points but the scoped rest; nothing owed.
    The shares: the two windows on x hold its two halves, the two on z likewise, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.SharedFrame.ΦS spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out0_6 (iblk m c 0 t) (iblk m c 1 t) (iblk m c 2 t) (iblk m c 3 t) (iblk m c 4 t) (iblk m c 5 t) := by dsimp only [dats]

/-- Each input's current staging buffer holds its block at every point, fetched there or not: unfetched, the block
    index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The arrays' buffers dealt into the windows' shares -/

/-- The five buffers behind the seven windows' arrays, each whole at the full share, make the windows' arrays at their
    shares: the buffer of x is split into its two halves for the two windows on it, the buffer of z likewise, and
    the weights, the bias row and the result go whole to their one window each. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0, bigSep_eq_bigSepL_of_eq [main_arg0, main_arg1, main_arg2, main_v0, main_v1] (by decide) (by decide)]
  simp only [bigSepL_cons_cons, bigSepL_singleton]
  have s0 : (dats m 0 c).share 0 = fullShare.left := rfl
  have s1 : (dats m 0 c).share 1 = fullShare.right := rfl
  have s2 : (dats m 0 c).share 2 = fullShare.left := rfl
  have s3 : (dats m 0 c).share 3 = fullShare.right := rfl
  have s4 : (dats m 0 c).share 4 = fullShare := rfl
  have s5 : (dats m 0 c).share 5 = fullShare := rfl
  have s6 : (dats m 0 c).share 6 = fullShare := rfl
  rw [s0, s1, s2, s3, s4, s5, s6]
  simp only [show ∀ w, (dats m 0 c).arrAt w 0 = (dats m 0 c).A w from fun _ => rfl, A_eq, View.set_whole]
  refine (show iprop((((c : Thread nD τ).loc main_arg0) ↦{fullShare} V m c main_arg0) ∗ (((c : Thread nD τ).loc main_arg1) ↦{fullShare} V m c main_arg1)
      ∗ (((c : Thread nD τ).loc main_arg2) ↦{fullShare} V m c main_arg2) ∗ (((c : Thread nD τ).loc main_v0) ↦{fullShare} V m c main_v0)
      ∗ (((c : Thread nD τ).loc main_v1) ↦{fullShare} V m c main_v1)) ⊢ _ from ?_)
  iintro ⟨Hx, Hz, Hw, Hb, Ho⟩
  ihave Hx' := (pointsTo_share (PosShare.mem_left_op_right fullShare)).1 $$ Hx
  icases Hx' with ⟨Hxl, Hxr⟩
  ihave Hz' := (pointsTo_share (PosShare.mem_left_op_right fullShare)).1 $$ Hz
  icases Hz' with ⟨Hzl, Hzr⟩
  isplitl [Hxl]; · iexact Hxl
  isplitl [Hxr]; · iexact Hxr
  isplitl [Hzl]; · iexact Hzl
  isplitl [Hzr]; · iexact Hzr
  isplitl [Hw]; · iexact Hw
  isplitl [Hb]; · iexact Hb
  iexact Ho

/-! ## The run and the frame -/

set_option backward.isDefEq.respectTransparency.types false in
/-- Every weakly fair execution of @main terminates, and every final state has each window's array at what the
    write-backs leave and every other unscoped buffer as the region found it. -/
theorem run_main : θ_run defs (onTc (τ := τ) (main (F := F))) (s₀ m ρ) (Pipeline.FramePost cfgs (dats m) 0 (V m)) :=
  Pipeline.SharedFrame.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- After the run the result array is what the eight write-backs leave of it. -/
theorem post_result (r : PUnit × MemSt nD τ sig (Elt F)) (h : Pipeline.FramePost cfgs (dats m) 0 (V m) r) (c : Dev nD) :
    r.2.mem ((c : Thread nD τ).loc main_v1) = (dats m 0 c).arrAt 6 cfg0.N :=
  (h c).1 6

/-- After the run x is as launched: an input window stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_arg m main_arg0 (by decide) c)))
/-- z likewise. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_arg m main_arg1 (by decide) c)))
/-- The weights likewise. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_arg m main_arg2 (by decide) c)))
/-- The bias vector is no window's array (the region reads its reshaped copy): it bypasses the region. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_arg m main_arg3 (by decide) c)

/-- The run with the result array named and the four arguments unchanged. -/
theorem run_blocks : θ_run defs (onTc (τ := τ) (main (F := F))) ⟨m, fun _ => 0, ρ⟩ fun r => ∀ c : Dev nD,
      r.2.mem ((c : Thread nD τ).loc main_v1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post_result m r h c, kept_main_arg0 m r h c, kept_main_arg1 m r h c,
      kept_main_arg2 m r h c, kept_main_arg3 m r h c⟩) (run_main m ρ)

/-- THE FRAME: the program runs to the end, faults nowhere, and leaves its four arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_blocks m ρ)

end Cert.KernelIdeal.Launched

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibReadAt.lean ====
/-
  General reading lemmas over literal shapes, in the style of the library's layout lemmas: a vector made a column
  ([a] to [a, 1]); a column repeated along rows ([a, 1] to [a, b]); a one-axis minimum reduction at the ideal
  values as the fold of `min` over that axis's coordinates; and a total sum over a rank-three index type with two
  unit axes as the sum over its one long coordinate.
-/
import Idealize.ShloMosaic.PureOps.Ideal.Laws
import Idealize.ShloMosaic.Lib.Pipeline.Value
import Idealize.ShloMosaic.Lib.ValueIdx
import Idealize.ShloMosaic.Lib.ValueLayout

namespace Cert.LibReadAt

open Idealize.ShloMosaic Idealize.ShloMosaic.ValueIdx

variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- At the ideal values a minimum reduction over ONE axis is, at each reduced index, the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A sum over the second axis of an `[a, b]` array, read at `i`, is the sum over the row's entries. -/
theorem sumAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (funext fun d => Fin.ext (by match d with | ⟨0, _⟩ => rfl | ⟨1, _⟩ => rfl))

/-- A sum over the first axis of an `[a, b]` array, read at `j`, is the sum over the column's entries. -/
theorem sumAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (funext fun d => Fin.ext (by match d with | ⟨0, _⟩ => rfl | ⟨1, _⟩ => rfl))

/-- A minimum over the second axis of an `[a, b]` array, read at `i`, is the fold of `min` over the row's entries. -/
theorem minAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  refine (multiReduction_minimumf_single src acc h hφ hacc (ix1 i)).trans ?_
  exact congrArg (fun f => Finset.fold min (Ideal.ofBits φ acc) f (Finset.univ : Finset (Fin b)))
    (funext fun k => congrArg src (funext fun d => Fin.ext (by match d with | ⟨0, _⟩ => rfl | ⟨1, _⟩ => rfl)))

/-- A minimum over the first axis of an `[a, b]` array, read at `j`, is the fold of `min` over the column's entries. -/
theorem minAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (j : Fin b) :
    multiReduction .minimumf [0] ⟨1, ![b]⟩ src acc h hφ hacc (ix1 j)
      = (Finset.univ : Finset (Fin a)).fold min (Ideal.ofBits φ acc) (fun k => src (ix2 k j)) := by
  refine (multiReduction_minimumf_single src acc h hφ hacc (ix1 j)).trans ?_
  exact congrArg (fun f => Finset.fold min (Ideal.ofBits φ acc) f (Finset.univ : Finset (Fin a)))
    (funext fun k => congrArg src (funext fun d => Fin.ext (by match d with | ⟨0, _⟩ => rfl | ⟨1, _⟩ => rfl)))

/-- The indices of a `[1, a, 1]` shape are its middle coordinates. -/
def midEquiv (a : ℕ) : Fin a ≃ (⟨3, ![1, a, 1]⟩ : Shape).Idx where
  toFun k := ix3 (0 : Fin 1) k (0 : Fin 1)
  invFun i := i 1
  left_inv _ := rfl
  right_inv i := funext fun d => match d with
    | ⟨0, _⟩ => Fin.ext (by have h : (i 0).val < 1 := (i 0).isLt; show (0 : ℕ) = (i 0).val; omega)
    | ⟨1, _⟩ => rfl
    | ⟨2, _⟩ => Fin.ext (by have h : (i 2).val < 1 := (i 2).isLt; show (0 : ℕ) = (i 2).val; omega)

/-- So a sum over them is the sum over the middle coordinate. -/
theorem sum_idx_1a1 {M : Type*} [AddCommMonoid M] {a : ℕ} (f : (⟨3, ![1, a, 1]⟩ : Shape).Idx → M) :
    ∑ i, f i = ∑ k : Fin a, f (ix3 (0 : Fin 1) k (0 : Fin 1)) :=
  (Equiv.sum_comp (midEquiv a) f).symm

/-- The indices of a `[1, 1, b]` shape are its last coordinates. -/
def lastEquiv (b : ℕ) : Fin b ≃ (⟨3, ![1, 1, b]⟩ : Shape).Idx where
  toFun k := ix3 (0 : Fin 1) (0 : Fin 1) k
  invFun i := i 2
  left_inv _ := rfl
  right_inv i := funext fun d => match d with
    | ⟨0, _⟩ => Fin.ext (by have h : (i 0).val < 1 := (i 0).isLt; show (0 : ℕ) = (i 0).val; omega)
    | ⟨1, _⟩ => Fin.ext (by have h : (i 1).val < 1 := (i 1).isLt; show (0 : ℕ) = (i 1).val; omega)
    | ⟨2, _⟩ => rfl

/-- So a sum over them is the sum over the last coordinate. -/
theorem sum_idx_11b {M : Type*} [AddCommMonoid M] {b : ℕ} (f : (⟨3, ![1, 1, b]⟩ : Shape).Idx → M) :
    ∑ i, f i = ∑ k : Fin b, f (ix3 (0 : Fin 1) (0 : Fin 1) k) :=
  (Equiv.sum_comp (lastEquiv b) f).symm

end Cert.LibReadAt
-- ==== Proof.LibMaxAxis.lean ====
/-
  A one-axis maximum reduction of an `[a, b]` array at the ideal values, read at a coordinate: the fold of `max`, from
  the accumulator's value, over the reduced axis's coordinates; the host's reduce with a maximum body over
  the LAST axis of an `[a, b, c]` array likewise. And the absorption that lets a second `max` with the
  fold's own starting value be dropped.
-/
import Idealize.ShloMosaic.PureOps.Ideal.Laws
import Idealize.ShloMosaic.Lib.ValueIdx

namespace Cert.LibMaxAxis

open Idealize.ShloMosaic Idealize.ShloMosaic.ValueIdx

/-- A maximum over the second axis of an `[a, b]` array, read at `i`, is the fold of `max` over the row's entries. -/
theorem maxAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  exact congrArg (fun f => Finset.fold max (Ideal.ofBits φ acc) f (Finset.univ : Finset (Fin b)))
    (funext fun k => congrArg src (funext fun d => Fin.ext (by match d with | ⟨0, _⟩ => rfl | ⟨1, _⟩ => rfl)))

/-- A maximum over the first axis of an `[a, b]` array, read at `j`, is the fold of `max` over the column's entries. -/
theorem maxAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) (fun k => src (ix2 k j)) := by
  refine (Ideal.multiReduction_maximumf_single src acc h hφ hacc (ix1 j)).trans ?_
  exact congrArg (fun f => Finset.fold max (Ideal.ofBits φ acc) f (Finset.univ : Finset (Fin a)))
    (funext fun k => congrArg src (funext fun d => Fin.ext (by match d with | ⟨0, _⟩ => rfl | ⟨1, _⟩ => rfl)))

/-- The reduced index (i, j) with `k` put back on the last axis is (i, j, k). -/
theorem lift_ix3_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- The host's reduce with a maximum body over the last axis of an `[a, b, c]` array, read at (i, j): the fold of `max`
    from the initial value over the entries (i, j, ·). -/
theorem hostMaxLastAxis_apply {φ : FTy} {a b c : ℕ} (x : FVec Ideal ⟨3, ![a, b, c]⟩ φ) (init : FVec Ideal ⟨0, ![]⟩ φ)
    (h' : (⟨3, ![a, b, c]⟩ : Shape).ReducesTo [2] (⟨2, ![a, b]⟩ : Shape)) (h : (⟨3, ![a, b, c]⟩ : Shape).Reduces [2] (⟨2, ![a, b]⟩ : Shape))
    (hu : 0 < (⟨0, ![]⟩ : Shape).numel) (i : Fin a) (j : Fin b) :
    Host.reduce FloatOps.maximumf x init h' hu (ix2 i j)
      = (Finset.univ : Finset (Fin c)).fold max (init (Shape.Idx.first hu)) (fun k => x (ix3 i j k)) := by
  rw [Host.reduce_eq_fold_single FloatOps.maximumf x init h' h hu]
  exact congrArg (fun f => Finset.fold max (init (Shape.Idx.first hu)) f (Finset.univ : Finset (Fin c)))
    (funext fun k => congrArg x (lift_ix3_last h i j k))

/-- A fold of `max` is at least its starting value, so taking `max` with that value again changes nothing. -/
theorem max_fold_max_self {ι : Type*} {α : Type*} [LinearOrder α] (s : Finset ι) (c : α) (f : ι → α) :
    max c (s.fold max c f) = s.fold max c f :=
  max_eq_right ((Finset.le_fold_max c).mpr (Or.inl le_rfl))

end Cert.LibMaxAxis
-- ==== Proof.LibRowKeepdims.lean ====
/-
  Row reductions written with keepdims, at the ideal values: a maximum (or a sum) over the second axis of an `[a, b]`
  array, made a column `[a, 1]` and repeated along the rows back to `[a, b]`, reads at (i, k) the fold of `max` over row
  i (the sum of row i), whatever k. Together they read a row softmax `exp (s - max) / Σ exp (s - max)` at an entry.
-/
import proofs.«109027_g46437186404428_cont_8to1_c_839_19_alg».proof.Proof.LibReadAt
import proofs.«109027_g46437186404428_cont_8to1_c_839_19_alg».proof.Proof.LibMaxAxis

namespace Cert.LibRowKeepdims

open Idealize.ShloMosaic Idealize.ShloMosaic.ValueIdx

/-- One entry of the softmax of a finite family `f`, written as programs compute it: with `m` the fold of `max` from `c`
    over the family, `exp (f k - m) / Σ_k' exp (f k' - m)`. -/
noncomputable def softmaxEntry {n : ℕ} (f : Fin n → EReal) (c : EReal) (k : Fin n) : EReal :=
  Ideal.div (Ideal.exp (f k - (Finset.univ : Finset (Fin n)).fold max c f))
    (∑ k' : Fin n, Ideal.exp (f k' - (Finset.univ : Finset (Fin n)).fold max c f))

/-- The row maximum, kept as a column and broadcast back, at (i, k): the fold of `max` over row i. -/
theorem rowMax_keepdims_apply {φ : FTy} {a b : ℕ} (s : FVec Ideal ⟨2, ![a, b]⟩ φ) (acc : BitVec φ.bits)
    (hr : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (hb : (⟨2, ![a, 1]⟩ : Shape).Broadcasts ⟨2, ![a, b]⟩) (i : Fin a) (k : Fin b) :
    broadcastTo ⟨2, ![a, b]⟩ (shapeCast ⟨2, ![a, 1]⟩ (multiReduction .maximumf [1] ⟨1, ![a]⟩ s acc hr hφ hacc) hc) hb (ix2 i k)
      = (Finset.univ : Finset (Fin b)).fold max (Ideal.ofBits φ acc) (fun k' => s (ix2 i k')) :=
  (Cert.LibReadAt.broadcastTo_a1_ab_apply _ hb i k).trans
    ((Cert.LibReadAt.shapeCast_a_a1_apply _ hc i 0).trans (Cert.LibMaxAxis.maxAxis1_apply s acc hr hφ hacc i))

/-- The row sum, kept as a column and broadcast back, at (i, k): the sum of row i. -/
theorem rowSum_keepdims_apply {φ : FTy} {a b : ℕ} (s : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩) (i : Fin a) (k : Fin b) :
    broadcastTo ⟨2, ![a, b]⟩ (shapeCast ⟨2, ![a, 1]⟩ (multiReduction .add [1] ⟨1, ![a]⟩ s acc hr hφ hacc) hc) hb (ix2 i k)
      = ∑ k' : Fin b, s (ix2 i k') :=
  (Cert.LibReadAt.broadcastTo_a1_ab_apply _ hb i k).trans
    ((Cert.LibReadAt.shapeCast_a_a1_apply _ hc i 0).trans (Cert.LibReadAt.sumAxis1_apply s acc hr hφ hacc i))

/-- The softmax numerator `exp (s - rowmax s)` with the maximum kept as a column, at (i, k). -/
theorem expSubRowMax_apply {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩) (i : Fin a) (k : Fin b) :
    exp (subf s (broadcastTo ⟨2, ![a, b]⟩ (shapeCast ⟨2, ![a, 1]⟩ (multiReduction .maximumf [1] ⟨1, ![a]⟩ s acc hr hφ hacc) hc) hb)) (ix2 i k)
      = Ideal.exp (s (ix2 i k) - (Finset.univ : Finset (Fin b)).fold max (Ideal.ofBits .f32 acc) (fun k' => s (ix2 i k'))) :=
  congrArg (fun z => Ideal.exp (s (ix2 i k) - z)) (rowMax_keepdims_apply s acc hr hφ hacc hc hb i k)

/-- A row softmax written with keepdims reductions — the numerator `p = exp (s - rowmax s)` divided by its row sum —
    at (i, k): the softmax entry k of row i of `s`. -/
theorem softmaxRows_apply {a b : ℕ} (s : FVec Ideal ⟨2, ![a, b]⟩ .f32) (accM accS : BitVec 32)
    (hr : (⟨2, ![a, b]⟩ : Shape).Reduces [1] ⟨1, ![a]⟩) (hφM : FKind.Formats .f32) (haccM : accM = FKind.maximumf.neutral .f32 hφM)
    (hφS : FKind.Formats .f32) (haccS : accS = FKind.add.neutral .f32 hφS)
    (hc : (⟨1, ![a]⟩ : Shape).ShapeCasts ⟨2, ![a, 1]⟩) (hb : (⟨2, ![a, 1]⟩ : Shape).Broadcasts ⟨2, ![a, b]⟩) (i : Fin a) (k : Fin b) :
    divf (exp (subf s (broadcastTo ⟨2, ![a, b]⟩ (shapeCast ⟨2, ![a, 1]⟩ (multiReduction .maximumf [1] ⟨1, ![a]⟩ s accM hr hφM haccM) hc) hb)))
      (broadcastTo ⟨2, ![a, b]⟩ (shapeCast ⟨2, ![a, 1]⟩ (multiReduction .add [1] ⟨1, ![a]⟩
        (exp (subf s (broadcastTo ⟨2, ![a, b]⟩ (shapeCast ⟨2, ![a, 1]⟩ (multiReduction .maximumf [1] ⟨1, ![a]⟩ s accM hr hφM haccM) hc) hb)))
        accS hr hφS haccS) hc) hb) (ix2 i k)
      = softmaxEntry (fun k' => s (ix2 i k')) (Ideal.ofBits .f32 accM) k :=
  congrArg₂ Ideal.div (expSubRowMax_apply s accM hr hφM haccM hc hb i k)
    ((rowSum_keepdims_apply _ accS hr hφS haccS hc hb i k).trans
      (Finset.sum_congr rfl fun k' _ => expSubRowMax_apply s accM hr hφM haccM hc hb i k'))

end Cert.LibRowKeepdims
-- ==== Proof.KernelPayload.lean ====
/-
  What the kernel's body stores, read at one entry, on the extended reals.

  For a half-block — 512 rows of x and of z, the two row-ranges of W that meet them, and the bias row — the body forms
  the logits  x·W₁ + z·W₂ + b  (two products into zero accumulators, added, the bias row repeated down the rows), and
  stores their row softmax: exp(logits − rowmax) divided by its row sum, both reductions kept as columns. At entry
  (p, j) that is the softmax entry j of the 64 logits of row p. The first store computes it from the first
  half-blocks; the second computes the same expression of the second half-blocks.
-/
import proofs.«109027_g46437186404428_cont_8to1_c_839_19_alg».proof.Proof.Gen.KernelIdeal.Skeleton
import proofs.«109027_g46437186404428_cont_8to1_c_839_19_alg».proof.Proof.LibPlainMatmul
import proofs.«109027_g46437186404428_cont_8to1_c_839_19_alg».proof.Proof.LibRowKeepdims
import Idealize.ShloMosaic.Lib.ValueLayout

set_option maxRecDepth 16384

noncomputable section

namespace Cert.KernelIdeal.Payload

open Cert.KernelIdeal Cert.KernelIdeal.Gen Idealize.ShloMosaic Idealize.ShloMosaic.ValueIdx Cert.LibRowKeepdims

/-- The logit of row p of a half-block for expert j. -/
def blockLogit (xa : Vec Ideal S512x3072 .f32) (w1 : Vec Ideal S3072x64 .f32) (za : Vec Ideal S512x768 .f32)
    (w2 : Vec Ideal S768x64 .f32) (brow : Vec Ideal S1x64 .f32) (p : Fin 512) (j : Fin 64) : EReal :=
  (∑ k : Fin 3072, xa (ix2 p k) * w1 (ix2 k j)) + (∑ k : Fin 768, za (ix2 p k) * w2 (ix2 k j)) + brow (ix2 (0 : Fin 1) j)

/-- The logits of a half-block as the body forms them. -/
def logits (xa : Vec Ideal S512x3072 .f32) (w1 : Vec Ideal S3072x64 .f32) (za : Vec Ideal S512x768 .f32)
    (w2 : Vec Ideal S768x64 .f32) (brow : Vec Ideal S1x64 .f32) : FVec Ideal S512x64 .f32 :=
  addf (addf (matmul (F := Ideal) (φ₁ := .f32) (φ₂ := .f32) dot_S512x3072_S3072x64_S512x64_1_0_0_1_n_n none xa w1 (constant (F := Ideal) S512x64 .f32 0x00000000#32))
      (matmul (F := Ideal) (φ₁ := .f32) (φ₂ := .f32) dot_S512x768_S768x64_S512x64_1_0_0_1_n_n none za w2 (constant (F := Ideal) S512x64 .f32 0x00000000#32)))
    (broadcastTo S512x64 (shapeCast S1x64 brow Facts₀.shapeCasts_S1x64_S1x64) Facts₀.broadcasts_S1x64_S512x64)

/-- Entry (p, j) of those logits: the two products are plain sums, the bias row is read at column j. -/
theorem logits_apply (xa : Vec Ideal S512x3072 .f32) (w1 : Vec Ideal S3072x64 .f32) (za : Vec Ideal S512x768 .f32)
    (w2 : Vec Ideal S768x64 .f32) (brow : Vec Ideal S1x64 .f32) (p : Fin 512) (j : Fin 64) :
    logits xa w1 za w2 brow (ix2 p j) = blockLogit xa w1 za w2 brow p j := by
  unfold logits blockLogit
  refine congrArg₂ (fun a b : EReal => a + b) (congrArg₂ (fun a b : EReal => a + b) ?_ ?_) ?_
  · exact Cert.PlainMatmul.matmul_zero_apply 512 3072 64 none xa w1 p j
  · exact Cert.PlainMatmul.matmul_zero_apply 512 768 64 none za w2 p j
  · exact (broadcastTo_1b_ab_apply _ Facts₀.broadcasts_S1x64_S512x64 p j).trans
      (congrFun (shapeCast_self brow Facts₀.shapeCasts_S1x64_S1x64) _)

/-- The first store's payload at (p, j): the softmax entry j of row p's logits. -/
theorem pay2_apply (v0 : Vec Ideal S512x3072 .f32) (v1 : Vec Ideal S3072x64 .f32) (v3 : Vec Ideal S512x768 .f32)
    (v4 : Vec Ideal S768x64 .f32) (v7 : Vec Ideal S1x64 .f32) (p : Fin 512) (j : Fin 64) :
    k0_pay2 (F := Ideal) v0 v1 v3 v4 v7 (ix2 p j)
      = softmaxEntry (fun j' => blockLogit v0 v1 v3 v4 v7 p j') (Ideal.ofBits .f32 0xFF800000#32) j := by
  unfold k0_pay2
  refine (softmaxRows_apply (logits v0 v1 v3 v4 v7) 0xFF800000#32 0x00000000#32 Facts₀.reduces_S512x64_S512 (.inl rfl) rfl (.inl rfl) rfl
    Facts₀.shapeCasts_S512_S512x1 Facts₀.broadcasts_S512x1_S512x64 p j).trans ?_
  exact congrArg (fun f => softmaxEntry f (Ideal.ofBits .f32 0xFF800000#32) j) (funext fun j' => logits_apply v0 v1 v3 v4 v7 p j')

/-- The second store's payload at (p, j): the same, of the second half-blocks. -/
theorem pay1_apply (v21 : Vec Ideal S512x3072 .f32) (v22 : Vec Ideal S3072x64 .f32) (v24 : Vec Ideal S512x768 .f32)
    (v25 : Vec Ideal S768x64 .f32) (v28 : Vec Ideal S1x64 .f32) (p : Fin 512) (j : Fin 64) :
    k0_pay1 (F := Ideal) (k0_pay3 v21 v22 v24 v25) (k0_pay4 v28) (ix2 p j)
      = softmaxEntry (fun j' => blockLogit v21 v22 v24 v25 v28 p j') (Ideal.ofBits .f32 0xFF800000#32) j := by
  unfold k0_pay1 k0_pay3 k0_pay4
  refine (softmaxRows_apply (logits v21 v22 v24 v25 v28) 0xFF800000#32 0x00000000#32 Facts₀.reduces_S512x64_S512 (.inl rfl) rfl (.inl rfl) rfl
    Facts₀.shapeCasts_S512_S512x1 Facts₀.broadcasts_S512x1_S512x64 p j).trans ?_
  exact congrArg (fun f => softmaxEntry f (Ideal.ofBits .f32 0xFF800000#32) j) (funext fun j' => logits_apply v21 v22 v24 v25 v28 p j')

end Cert.KernelIdeal.Payload

end
-- ==== Proof.GateSpec.lean ====
/-
  The gating network, as one function of its four arguments on the extended reals.

  For token r the logits are  l(r, j) = Σ_{k < 3072} x(r, k) · W(k, j) + Σ_{k < 768} z(r, k) · W(3072 + k, j) + b(j),
  j < 64: the product of the row (x(r, ·), z(r, ·)) of length 3840 with W, the sum over the joined row written as the
  sum over its x part plus the sum over its z part, plus the bias. The gate is the softmax of the 64 logits of the row,
  as programs compute it: with M the maximum of the row's logits (folded from −∞),
  gate(r, j) = exp(l(r, j) − M) / Σ_{j'} exp(l(r, j') − M).
-/
import proofs.«109027_g46437186404428_cont_8to1_c_839_19_alg».proof.Proof.LibRowKeepdims

noncomputable section

namespace Cert.GateSpec

open Idealize.ShloMosaic Idealize.ShloMosaic.ValueIdx Cert.LibRowKeepdims

/-- Row k of W's upper part (the rows that meet x). -/
def wLo (k : Fin 3072) : Fin 3840 := ⟨k.val, by have := k.isLt; omega⟩
/-- Row 3072 + k of W: its lower part (the rows that meet z). -/
def wHi (k : Fin 768) : Fin 3840 := ⟨3072 + k.val, by have := k.isLt; omega⟩

/-- −∞, the word the maximum is folded from. -/
abbrev negInf : EReal := Ideal.ofBits .f32 0xFF800000#32

/-- The logit of token r for expert j. -/
def logit (X : (⟨2, ![8192, 3072]⟩ : Shape).Idx → EReal) (Z : (⟨2, ![8192, 768]⟩ : Shape).Idx → EReal)
    (W : (⟨2, ![3840, 64]⟩ : Shape).Idx → EReal) (B : (⟨1, ![64]⟩ : Shape).Idx → EReal) (r : Fin 8192) (j : Fin 64) : EReal :=
  (∑ k : Fin 3072, X (ix2 r k) * W (ix2 (wLo k) j)) + (∑ k : Fin 768, Z (ix2 r k) * W (ix2 (wHi k) j)) + B (ix1 j)

/-- The gates: the row softmax of the logits. -/
def gate (X : (⟨2, ![8192, 3072]⟩ : Shape).Idx → EReal) (Z : (⟨2, ![8192, 768]⟩ : Shape).Idx → EReal)
    (W : (⟨2, ![3840, 64]⟩ : Shape).Idx → EReal) (B : (⟨1, ![64]⟩ : Shape).Idx → EReal) :
    (⟨2, ![8192, 64]⟩ : Shape).Idx → EReal :=
  fun i => softmaxEntry (fun j' => logit X Z W B (i 0) j') negInf (i 1)

/-- A sum over the 3840 rows of W is the sum over its first 3072 rows plus the sum over its last 768: only
    that addition is commutative and associative is used, so it holds of any extended reals. -/
theorem sum_rows_split {M : Type*} [AddCommMonoid M] (f : Fin 3840 → M) :
    ∑ k : Fin 3840, f k = (∑ k : Fin 3072, f (wLo k)) + ∑ k : Fin 768, f (wHi k) :=
  Fin.sum_univ_add (a := 3072) (b := 768) f

end Cert.GateSpec

end
-- ==== Proof.KernelBlocks.lean ====
/-
  From the blocks to the whole result array, on the extended reals.

  Point t of the grid works on rows 1024 t … 1024 t + 1023. Its first half-blocks are rows (2t)·512 + p of x and of z, its
  second half-blocks rows (2t + 1)·512 + p, p < 512; the weights and the bias row are the whole arrays at every point. The
  body stores the row softmax of the first half-blocks' logits into rows 0…511 of the output block and that of the second
  half-blocks into rows 512…1023, so what point t writes back is rows 1024 t … 1024 t + 1023 of the gates of the whole
  arrays. The eight output blocks tile the result, which therefore ends holding the gates.
-/
import proofs.«109027_g46437186404428_cont_8to1_c_839_19_alg».proof.Proof.KernelIdealLaunch
import proofs.«109027_g46437186404428_cont_8to1_c_839_19_alg».proof.Proof.KernelPayload
import proofs.«109027_g46437186404428_cont_8to1_c_839_19_alg».proof.Proof.GateSpec
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Launched Cert.KernelIdeal.Payload Cert.GateSpec Cert.LibRowKeepdims
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays as the region finds them -/

abbrev arrX (c : Dev nD) : (⟨2, ![8192, 3072]⟩ : Shape).Idx → EReal := V m c main_arg0
abbrev arrZ (c : Dev nD) : (⟨2, ![8192, 768]⟩ : Shape).Idx → EReal := V m c main_arg1
abbrev arrW (c : Dev nD) : (⟨2, ![3840, 64]⟩ : Shape).Idx → EReal := V m c main_arg2
abbrev arrBrow (c : Dev nD) : (⟨2, ![1, 64]⟩ : Shape).Idx → EReal := V m c main_v0
/-- The bias as a vector, read off the bias row. -/
abbrev arrB (c : Dev nD) : (⟨1, ![64]⟩ : Shape).Idx → EReal := fun i => arrBrow m c (ix2 (0 : Fin 1) (i 0))

/-! ## The index maps, decided over the grid -/

/-- With R the output's block row at point t: the first half-blocks sit at block row 2R, the second at 2R + 1, all in
    block column 0; the weights and the bias at block (0, 0); R ≤ 7. -/
theorem idx_facts : ∀ t : Fin cfg0.N,
    win0_0.index t (0 : Fin 2) = 2 * win0_6.index t (0 : Fin 2) ∧ win0_0.index t (1 : Fin 2) = 0
    ∧ win0_1.index t (0 : Fin 2) = 2 * win0_6.index t (0 : Fin 2) + 1 ∧ win0_1.index t (1 : Fin 2) = 0
    ∧ win0_2.index t (0 : Fin 2) = 2 * win0_6.index t (0 : Fin 2) ∧ win0_2.index t (1 : Fin 2) = 0
    ∧ win0_3.index t (0 : Fin 2) = 2 * win0_6.index t (0 : Fin 2) + 1 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 7 :=
  (by decide +kernel : ∀ t : Fin grid0.N, _)

/-- Every block row of the result is some point's. -/
theorem idx_onto : ∀ q : Fin 8, ∃ t : Fin cfg0.N, win0_6.index t = ![q.val, 0] :=
  (by decide +kernel : ∀ q : Fin 8, ∃ t : Fin grid0.N, win0_6.index t = ![q.val, 0])

/-! ## Each window's block at coordinates -/

theorem iblk0_apply (c : Dev nD) (t : Fin cfg0.N) (p : Fin 512) (k : Fin 3072) (r : Fin 8192)
    (hr : r.val = 2 * win0_6.index t (0 : Fin 2) * 512 + p.val) :
    iblk m c 0 t (ix2 p k) = arrX m c (ix2 r k) := by
  obtain ⟨e0, e1, -⟩ := idx_facts t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 3072 + 1 * k.val = k.val; omega

theorem iblk1_apply (c : Dev nD) (t : Fin cfg0.N) (p : Fin 512) (k : Fin 3072) (r : Fin 8192)
    (hr : r.val = (2 * win0_6.index t (0 : Fin 2) + 1) * 512 + p.val) :
    iblk m c 1 t (ix2 p k) = arrX m c (ix2 r k) := by
  obtain ⟨-, -, e0, e1, -⟩ := idx_facts t
  show V m c main_arg0 (((cfg0.win 1).blk t).view.emb (ix2 p k)) = V m c main_arg0 (ix2 r k)
  refine congrArg _ (funext fun a => Fin.ext ?_)
  match a with
  | ⟨0, _⟩ => show win0_1.index t (0 : Fin 2) * 512 + 1 * p.val = r.val; rw [e0]; omega
  | ⟨1, _⟩ => show win0_1.index t (1 : Fin 2) * 3072 + 1 * k.val = k.val; omega

theorem iblk2_apply (c : Dev nD) (t : Fin cfg0.N) (p : Fin 512) (k : Fin 768) (r : Fin 8192)
    (hr : r.val = 2 * win0_6.index t (0 : Fin 2) * 512 + p.val) :
    iblk m c 2 t (ix2 p k) = arrZ m c (ix2 r k) := by
  obtain ⟨-, -, -, -, e0, e1, -⟩ := idx_facts t
  show V m c main_arg1 (((cfg0.win 2).blk t).view.emb (ix2 p k)) = V m c main_arg1 (ix2 r k)
  refine congrArg _ (funext fun a => Fin.ext ?_)
  match a with
  | ⟨0, _⟩ => show win0_2.index t (0 : Fin 2) * 512 + 1 * p.val = r.val; omega
  | ⟨1, _⟩ => show win0_2.index t (1 : Fin 2) * 768 + 1 * k.val = k.val; omega

theorem iblk3_apply (c : Dev nD) (t : Fin cfg0.N) (p : Fin 512) (k : Fin 768) (r : Fin 8192)
    (hr : r.val = (2 * win0_6.index t (0 : Fin 2) + 1) * 512 + p.val) :
    iblk m c 3 t (ix2 p k) = arrZ m c (ix2 r k) := by
  obtain ⟨-, -, -, -, -, -, e0, e1, -⟩ := idx_facts t
  show V m c main_arg1 (((cfg0.win 3).blk t).view.emb (ix2 p k)) = V m c main_arg1 (ix2 r k)
  refine congrArg _ (funext fun a => Fin.ext ?_)
  match a with
  | ⟨0, _⟩ => show win0_3.index t (0 : Fin 2) * 512 + 1 * p.val = r.val; rw [e0]; omega
  | ⟨1, _⟩ => show win0_3.index t (1 : Fin 2) * 768 + 1 * k.val = k.val; omega

theorem iblk4_apply (c : Dev nD) (t : Fin cfg0.N) (k : Fin 3840) (j : Fin 64) :
    iblk m c 4 t (ix2 k j) = arrW m c (ix2 k j) := by
  obtain ⟨-, -, -, -, -, -, -, -, e0, e1, -⟩ := idx_facts t
  show V m c main_arg2 (((cfg0.win 4).blk t).view.emb (ix2 k j)) = V m c main_arg2 (ix2 k j)
  refine congrArg _ (funext fun a => Fin.ext ?_)
  match a with
  | ⟨0, _⟩ => show win0_4.index t (0 : Fin 2) * 3840 + 1 * k.val = k.val; omega
  | ⟨1, _⟩ => show win0_4.index t (1 : Fin 2) * 64 + 1 * j.val = j.val; omega

theorem iblk5_apply (c : Dev nD) (t : Fin cfg0.N) (u : Fin 1) (j : Fin 64) :
    iblk m c 5 t (ix2 u j) = arrBrow m c (ix2 u j) := by
  obtain ⟨-, -, -, -, -, -, -, -, -, -, e0, e1, -⟩ := idx_facts t
  show V m c main_v0 (((cfg0.win 5).blk t).view.emb (ix2 u j)) = V m c main_v0 (ix2 u j)
  refine congrArg _ (funext fun a => Fin.ext ?_)
  match a with
  | ⟨0, _⟩ => show win0_5.index t (0 : Fin 2) * 1 + 1 * u.val = u.val; omega
  | ⟨1, _⟩ => show win0_5.index t (1 : Fin 2) * 64 + 1 * j.val = j.val; omega

/-! ## The body's loads of the blocks, at coordinates -/

theorem ldX_apply (x : Vec Ideal S512x3072 .f32) (p : Fin 512) (k : Fin 3072) : View.ld x rX (ix2 p k) = x (ix2 p k) :=
  congrArg x (funext fun a => Fin.ext (by
    match a with
    | ⟨0, _⟩ => show 0 + 1 * p.val = p.val; omega
    | ⟨1, _⟩ => show 0 + 1 * k.val = k.val; omega))

theorem ldZ_apply (x : Vec Ideal S512x768 .f32) (p : Fin 512) (k : Fin 768) : View.ld x rZ (ix2 p k) = x (ix2 p k) :=
  congrArg x (funext fun a => Fin.ext (by
    match a with
    | ⟨0, _⟩ => show 0 + 1 * p.val = p.val; omega
    | ⟨1, _⟩ => show 0 + 1 * k.val = k.val; omega))

theorem ldB_apply (x : Vec Ideal S1x64 .f32) (u : Fin 1) (j : Fin 64) : View.ld x rB (ix2 u j) = x (ix2 u j) :=
  congrArg x (funext fun a => Fin.ext (by
    match a with
    | ⟨0, _⟩ => show 0 + 1 * u.val = u.val; omega
    | ⟨1, _⟩ => show 0 + 1 * j.val = j.val; omega))

/-- The rows of W that meet x. -/
theorem ldWx_apply (x : Vec Ideal S3840x64 .f32) (k : Fin 3072) (j : Fin 64) : View.ld x rWx (ix2 k j) = x (ix2 (wLo k) j) :=
  congrArg x (funext fun a => Fin.ext (by
    match a with
    | ⟨0, _⟩ => show 0 + 1 * k.val = k.val; omega
    | ⟨1, _⟩ => show 0 + 1 * j.val = j.val; omega))

/-- The rows of W that meet z: from row 3072 on. -/
theorem ldWz_apply (x : Vec Ideal S3840x64 .f32) (k : Fin 768) (j : Fin 64) : View.ld x rWz (ix2 k j) = x (ix2 (wHi k) j) :=
  congrArg x (funext fun a => Fin.ext (by
    match a with
    | ⟨0, _⟩ => show 3072 + 1 * k.val = 3072 + k.val; omega
    | ⟨1, _⟩ => show 0 + 1 * j.val = j.val; omega))

/-! ## A half-block's logits are the arrays' logits of its rows -/

/-- Row p of the first half-blocks at point t is row (2R)·512 + p of the arrays. -/
theorem logit_lo (c : Dev nD) (t : Fin cfg0.N) (p : Fin 512) (j' : Fin 64) (r : Fin 8192)
    (hr : r.val = 2 * win0_6.index t (0 : Fin 2) * 512 + p.val) :
    blockLogit (View.ld (iblk m c 0 t) rX) (View.ld (iblk m c 4 t) rWx) (View.ld (iblk m c 2 t) rZ)
        (View.ld (iblk m c 4 t) rWz) (View.ld (iblk m c 5 t) rB) p j'
      = logit (arrX m c) (arrZ m c) (arrW m c) (arrB m c) r j' := by
  unfold blockLogit logit
  refine congrArg₂ (fun a b : EReal => a + b) (congrArg₂ (fun a b : EReal => a + b)
    (Finset.sum_congr rfl fun k _ => congrArg₂ (fun a b : EReal => a * b) ?_ ?_)
    (Finset.sum_congr rfl fun k _ => congrArg₂ (fun a b : EReal => a * b) ?_ ?_)) ?_
  · exact (ldX_apply (iblk m c 0 t) p k).trans (iblk0_apply m c t p k r hr)
  · exact (ldWx_apply (iblk m c 4 t) k j').trans (iblk4_apply m c t (wLo k) j')
  · exact (ldZ_apply (iblk m c 2 t) p k).trans (iblk2_apply m c t p k r hr)
  · exact (ldWz_apply (iblk m c 4 t) k j').trans (iblk4_apply m c t (wHi k) j')
  · exact (ldB_apply (iblk m c 5 t) 0 j').trans (iblk5_apply m c t 0 j')

/-- Row p of the second half-blocks at point t is row (2R + 1)·512 + p of the arrays. -/
theorem logit_hi (c : Dev nD) (t : Fin cfg0.N) (p : Fin 512) (j' : Fin 64) (r : Fin 8192)
    (hr : r.val = (2 * win0_6.index t (0 : Fin 2) + 1) * 512 + p.val) :
    blockLogit (View.ld (iblk m c 1 t) rX) (View.ld (iblk m c 4 t) rWx) (View.ld (iblk m c 3 t) rZ)
        (View.ld (iblk m c 4 t) rWz) (View.ld (iblk m c 5 t) rB) p j'
      = logit (arrX m c) (arrZ m c) (arrW m c) (arrB m c) r j' := by
  unfold blockLogit logit
  refine congrArg₂ (fun a b : EReal => a + b) (congrArg₂ (fun a b : EReal => a + b)
    (Finset.sum_congr rfl fun k _ => congrArg₂ (fun a b : EReal => a * b) ?_ ?_)
    (Finset.sum_congr rfl fun k _ => congrArg₂ (fun a b : EReal => a * b) ?_ ?_)) ?_
  · exact (ldX_apply (iblk m c 1 t) p k).trans (iblk1_apply m c t p k r hr)
  · exact (ldWx_apply (iblk m c 4 t) k j').trans (iblk4_apply m c t (wLo k) j')
  · exact (ldZ_apply (iblk m c 3 t) p k).trans (iblk3_apply m c t p k r hr)
  · exact (ldWz_apply (iblk m c 4 t) k j').trans (iblk4_apply m c t (wHi k) j')
  · exact (ldB_apply (iblk m c 5 t) 0 j').trans (iblk5_apply m c t 0 j')

/-! ## What point t writes back -/

/-- The gates of the arrays as the region finds them. -/
abbrev G (c : Dev nD) : (⟨2, ![8192, 64]⟩ : Shape).Idx → EReal := gate (arrX m c) (arrZ m c) (arrW m c) (arrB m c)

/-- WHAT POINT t WRITES BACK is block t of the gates: rows 0…511 of the block come from the first half-blocks, rows
    512…1023 from the second, and either way the row of the block is the row of the arrays the logits were formed of. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  obtain ⟨-, -, -, -, -, -, -, -, -, -, -, -, e61, e60⟩ := idx_facts t
  funext y
  show out0_6 (iblk m c 0 t) (iblk m c 1 t) (iblk m c 2 t) (iblk m c 3 t) (iblk m c 4 t) (iblk m c 5 t) y
    = G m c (((cfg0.win 6).blk t).view.emb y)
  unfold out0_6
  refine View.canon_apply_of_pieces (Val := Elt Ideal) (S := S1024x64) (e := .f32) (fun y => G m c (((cfg0.win 6).blk t).view.emb y)) _ ?_ y (cover0_6 _ _ y)
  intro pc hpc x
  rcases List.mem_cons.mp hpc with rfl | hpc
  · obtain ⟨p, j, rfl⟩ : ∃ (p : Fin 512) (j : Fin 64), x = ix2 p j := ⟨x 0, x 1, eq_ix2 x⟩
    refine (pay1_apply (View.ld (iblk m c 1 t) rX) (View.ld (iblk m c 4 t) rWx) (View.ld (iblk m c 3 t) rZ)
      (View.ld (iblk m c 4 t) rWz) (View.ld (iblk m c 5 t) rB) p j).trans ?_
    have hj : ((cfg0.win 6).blk t).view.emb (rHi.emb (ix2 p j)) 1 = j :=
      Fin.ext (by show win0_6.index t (1 : Fin 2) * 64 + 1 * (0 + 1 * j.val) = j.val; omega)
    have hr : (((cfg0.win 6).blk t).view.emb (rHi.emb (ix2 p j)) 0).val = (2 * win0_6.index t (0 : Fin 2) + 1) * 512 + p.val := by
      show win0_6.index t (0 : Fin 2) * 1024 + 1 * (512 + 1 * p.val) = _; omega
    show _ = softmaxEntry (fun j' => logit (arrX m c) (arrZ m c) (arrW m c) (arrB m c) (((cfg0.win 6).blk t).view.emb (rHi.emb (ix2 p j)) 0) j')
      negInf (((cfg0.win 6).blk t).view.emb (rHi.emb (ix2 p j)) 1)
    rw [hj]
    exact congrArg (fun f => softmaxEntry f negInf j) (funext fun j' => logit_hi m c t p j' _ hr)
  · rcases List.mem_cons.mp hpc with rfl | hpc
    · obtain ⟨p, j, rfl⟩ : ∃ (p : Fin 512) (j : Fin 64), x = ix2 p j := ⟨x 0, x 1, eq_ix2 x⟩
      refine (pay2_apply (View.ld (iblk m c 0 t) rX) (View.ld (iblk m c 4 t) rWx) (View.ld (iblk m c 2 t) rZ)
        (View.ld (iblk m c 4 t) rWz) (View.ld (iblk m c 5 t) rB) p j).trans ?_
      have hj : ((cfg0.win 6).blk t).view.emb (rLo.emb (ix2 p j)) 1 = j :=
        Fin.ext (by show win0_6.index t (1 : Fin 2) * 64 + 1 * (0 + 1 * j.val) = j.val; omega)
      have hr : (((cfg0.win 6).blk t).view.emb (rLo.emb (ix2 p j)) 0).val = 2 * win0_6.index t (0 : Fin 2) * 512 + p.val := by
        show win0_6.index t (0 : Fin 2) * 1024 + 1 * (0 + 1 * p.val) = _; omega
      show _ = softmaxEntry (fun j' => logit (arrX m c) (arrZ m c) (arrW m c) (arrB m c) (((cfg0.win 6).blk t).view.emb (rLo.emb (ix2 p j)) 0) j')
        negInf (((cfg0.win 6).blk t).view.emb (rLo.emb (ix2 p j)) 1)
      rw [hj]
      exact congrArg (fun f => softmaxEntry f negInf j) (funext fun j' => logit_lo m c t p j' _ hr)
    · exact absurd hpc List.not_mem_nil

/-! ## The eight blocks tile the result -/

theorem mem_blk6 (t : Fin cfg0.N) (i : S8192x64.Idx) :
    i ∈ ((cfg0.win 6).blk t).view.set ↔ ∀ a : Fin 2, win0_6.index t a * S1024x64.size a ≤ (i a).val
      ∧ (i a).val < win0_6.index t a * S1024x64.size a + S1024x64.size a := by
  show i ∈ ((View.whole main_v1).slice (win0_6.rect t)).set ↔ _
  rw [View.set_slice_whole, Rect.mem_set_unit]
  exact Iff.rfl

/-- Row r of the result is in the block of the point whose block row is r / 1024. -/
theorem cover (i : S8192x64.Idx) : ∃ t : Fin cfg0.N, (cfg0.win 6).flush t = true ∧ i ∈ ((cfg0.win 6).blk t).view.set := by
  have hi0 : (i 0).val < 8192 := (i 0).isLt
  have hi1 : (i 1).val < 64 := (i 1).isLt
  obtain ⟨t, ht⟩ := idx_onto ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 64 ≤ (i 1).val ∧ (i 1).val < win0_6.index t (1 : Fin 2) * 64 + 64; omega

/-- THE RESULT ARRAY after the run is the gates of the arrays as the region found them. -/
theorem final (c : Dev nD) : (dats m 0 c).arrAt 6 cfg0.N = G m c :=
  (dats m 0 c).arrAt_eq_of_cover 6 (G m c) (fun t _ => flushed_eq m c t) cover

/-! ## The bias row the region reads is the bias vector, reshaped -/

theorem brow_eq (c : Dev nD) :
    (V m c main_v0 : S1x64.Idx → EReal) = shapeCast S1x64 (m ((c : Thread nD τ).loc main_arg3)) Facts₀.shapeCasts_S64_S1x64 := by
  dsimp only [V, hostOps0]; after_results; rfl

theorem arrB_eq (c : Dev nD) : arrB m c = m ((c : Thread nD τ).loc main_arg3) := by
  funext i
  obtain ⟨j, rfl⟩ : ∃ j : Fin 64, i = ix1 j := ⟨i 0, eq_ix1 i⟩
  show V m c main_v0 (ix2 (0 : Fin 1) j) = _
  rw [brow_eq]
  exact shapeCast_a_1a_apply _ Facts₀.shapeCasts_S64_S1x64 0 j

/-- The gates of the arrays as the region finds them are the gates of the arrays as launched. -/
theorem G_eq (c : Dev nD) :
    G m c = gate (m ((c : Thread nD τ).loc main_arg0)) (m ((c : Thread nD τ).loc main_arg1))
      (m ((c : Thread nD τ).loc main_arg2)) (m ((c : Thread nD τ).loc main_arg3)) := by
  have hX : arrX m c = m ((c : Thread nD τ).loc main_arg0) := V_arg m main_arg0 (by decide) c
  have hZ : arrZ m c = m ((c : Thread nD τ).loc main_arg1) := V_arg m main_arg1 (by decide) c
  have hW : arrW m c = m ((c : Thread nD τ).loc main_arg2) := V_arg m main_arg2 (by decide) c
  show gate (arrX m c) (arrZ m c) (arrW m c) (arrB m c) = _
  rw [hX, hZ, hW, arrB_eq]

/-! ## The kernel's run, read -/

/-- Every weakly fair execution of the idealized kernel terminates with the result array at the gates of its arguments,
    and the arguments unchanged. -/
theorem run : θ_run defs (onTc (τ := τ) (main (F := Ideal))) ⟨m, fun _ => 0, ρ⟩ fun r => ∀ c : Dev nD,
      r.2.mem ((c : Thread nD τ).loc main_v1) = gate (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (G_eq m c)), (h c).2⟩) (run_blocks m ρ)

end Cert.KernelIdeal.Blocks

end
-- ==== Proof.LibHostRowMax.lean ====
/-
  The host's reduce with a maximum body over the second axis of an `[a, b]` array, at the ideal values, read at a row:
  the fold of `max`, from the initial value, over the row's entries.
-/
import Idealize.ShloMosaic.PureOps.Ideal.Laws
import Idealize.ShloMosaic.Lib.ValueIdx

namespace Cert.LibHostRowMax

open Idealize.ShloMosaic Idealize.ShloMosaic.ValueIdx

/-- The reduced index i with k put back on the second axis is (i, k). -/
theorem lift_ix2_last {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

/-- The host's maximum over the second axis of an `[a, b]` array, read at row i: the fold of `max` from the initial
    value over the entries (i, ·). -/
theorem hostMaxAxis1_apply {φ : FTy} {a b : ℕ} (x : FVec Ideal ⟨2, ![a, b]⟩ φ) (init : FVec Ideal ⟨0, ![]⟩ φ)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  exact congrArg (fun f => Finset.fold max (init (Shape.Idx.first hu)) f (Finset.univ : Finset (Fin b)))
    (funext fun k => congrArg x (lift_ix2_last h i k))

end Cert.LibHostRowMax
-- ==== Proof.RefGate.lean ====
/-
  The reference computes the gates.

  The reference joins x and z along the columns, multiplies the joined matrix with W, adds the bias repeated down the
  rows, and takes jax's row softmax: the row maximum (a reduce from −∞, then one more maximum with −∞, which changes
  nothing), exp of the difference, the row sum from 0, the quotient. Entry (r, k) of the joined matrix is x(r, k) for
  k < 3072 and z(r, k − 3072) from there on, so the product's sum over 3840 is the sum over x's columns plus the sum
  over z's: the logits of the specification. The rest is the specification's softmax entry, term by term.
-/
import proofs.«109027_g46437186404428_cont_8to1_c_839_19_alg».proof.Proof.Gen.ReferenceIdeal.Read
import proofs.«109027_g46437186404428_cont_8to1_c_839_19_alg».proof.Proof.GateSpec
import proofs.«109027_g46437186404428_cont_8to1_c_839_19_alg».proof.Proof.LibHostRowMax
import Idealize.ShloMosaic.Lib.Pipeline.Value

set_option maxRecDepth 16384

noncomputable section

namespace Cert.ReferenceIdeal.RefValue

open Cert.ReferenceIdeal Cert.ReferenceIdeal.Gen Cert.ReferenceIdeal.Read Cert.GateSpec Cert.LibRowKeepdims
open Idealize.ShloMosaic Idealize.ShloMosaic.ValueIdx

variable (x0 : (⟨S8192x3072, .f32⟩ : BufTy).Contents (Elt Ideal)) (x1 : (⟨S8192x768, .f32⟩ : BufTy).Contents (Elt Ideal))
  (x2 : (⟨S3840x64, .f32⟩ : BufTy).Contents (Elt Ideal)) (x3 : (⟨S64, .f32⟩ : BufTy).Contents (Elt Ideal))

/-- The joined matrix on x's columns. -/
theorem joined_lo (r : Fin 8192) (k : Fin 3072) : val_main_v0 (F := Ideal) x0 x1 (ix2 r (wLo k)) = x0 (ix2 r k) := by
  unfold val_main_v0
  exact concatenate_pair_apply_left 1 x0 x1 _ (ix2 r (wLo k)) rfl (ix2 r k)
    (fun b => by match b with | ⟨0, _⟩ => rfl | ⟨1, _⟩ => rfl)

/-- The joined matrix on z's columns. -/
theorem joined_hi (r : Fin 8192) (k : Fin 768) : val_main_v0 (F := Ideal) x0 x1 (ix2 r (wHi k)) = x1 (ix2 r k) := by
  unfold val_main_v0
  exact concatenate_pair_apply_right 1 x0 x1 _ (ix2 r (wHi k)) rfl rfl (ix2 r k)
    (fun b hb => by match b with | ⟨0, _⟩ => rfl | ⟨1, _⟩ => exact absurd rfl hb)
    (by show k.val + 3072 = 3072 + k.val; omega)

/-- The reference's logits are the specification's. -/
theorem logits_eq (r : Fin 8192) (j : Fin 64) : val_main_v4 (F := Ideal) x0 x1 x2 x3 (ix2 r j) = logit x0 x1 x2 x3 r j := by
  rw [val_main_v4_apply, val_main_v1_apply, val_main_v3_apply, val_main_v2_apply]
  unfold logit
  rw [sum_rows_split]
  refine congrArg₂ (fun a b : EReal => a + b) (congrArg₂ (fun a b : EReal => a + b)
    (Finset.sum_congr rfl fun k _ => ?_) (Finset.sum_congr rfl fun k _ => ?_)) ?_
  · have e1 : lidx_main_v1 (ix2 r j) (wLo k) = ix2 r (wLo k) :=
      funext fun a => Fin.ext (by match a with | ⟨0, _⟩ => rfl | ⟨1, _⟩ => rfl)
    have e2 : ridx_main_v1 (ix2 r j) (wLo k) = ix2 (wLo k) j :=
      funext fun a => Fin.ext (by match a with | ⟨0, _⟩ => rfl | ⟨1, _⟩ => rfl)
    rw [e1, e2, joined_lo]
  · have e1 : lidx_main_v1 (ix2 r j) (wHi k) = ix2 r (wHi k) :=
      funext fun a => Fin.ext (by match a with | ⟨0, _⟩ => rfl | ⟨1, _⟩ => rfl)
    have e2 : ridx_main_v1 (ix2 r j) (wHi k) = ix2 (wHi k) j :=
      funext fun a => Fin.ext (by match a with | ⟨0, _⟩ => rfl | ⟨1, _⟩ => rfl)
    rw [e1, e2, joined_hi]
  · exact congrArg x3 (funext fun a => Fin.ext (by match a with | ⟨0, _⟩ => rfl))

/-- The row maximum the reference subtracts: the fold of max from −∞ over the row's logits. -/
theorem rowmax_eq (r : Fin 8192) :
    val_main_v7 (F := Ideal) x0 x1 x2 x3 (ix1 r)
      = (Finset.univ : Finset (Fin 64)).fold max negInf (fun j' => logit x0 x1 x2 x3 r j') := by
  have h5 : val_main_v5 (F := Ideal) x0 x1 x2 x3 (ix1 r)
      = (Finset.univ : Finset (Fin 64)).fold max negInf (fun j' => logit x0 x1 x2 x3 r j') := by
    unfold val_main_v5
    refine (Cert.LibHostRowMax.hostMaxAxis1_apply (val_main_v4 (F := Ideal) x0 x1 x2 x3) (val_main_cst (F := Ideal))
      reducesTo_S8192x64_S8192_d1 (by decide) h_S_ r).trans ?_
    exact congrArg (fun f => Finset.fold max negInf f (Finset.univ : Finset (Fin 64)))
      (funext fun j' => logits_eq x0 x1 x2 x3 r j')
  rw [val_main_v7_apply, h5, val_main_v6_apply, val_main_cst_0_apply]
  exact Cert.LibMaxAxis.max_fold_max_self _ _ _

/-- The numerator at (r, j). -/
theorem numer_eq (r : Fin 8192) (j : Fin 64) :
    val_main_v11 (F := Ideal) x0 x1 x2 x3 (ix2 r j)
      = Ideal.exp (logit x0 x1 x2 x3 r j - (Finset.univ : Finset (Fin 64)).fold max negInf (fun j' => logit x0 x1 x2 x3 r j')) := by
  rw [val_main_v11_apply, val_main_v10_apply, val_main_v9_apply, val_main_v8_apply, logits_eq]
  have e : idx_main_v8 (idx_main_v9 (ix2 r j)) = ix1 r := funext fun a => Fin.ext (by match a with | ⟨0, _⟩ => rfl)
  rw [e, rowmax_eq]
  rfl

/-- The denominator of row r. -/
theorem denom_eq (r : Fin 8192) :
    val_main_v12 (F := Ideal) x0 x1 x2 x3 (ix1 r)
      = ∑ k' : Fin 64, Ideal.exp (logit x0 x1 x2 x3 r k' - (Finset.univ : Finset (Fin 64)).fold max negInf (fun j' => logit x0 x1 x2 x3 r j')) := by
  rw [val_main_v12_apply, val_main_cst_1_apply]
  show Ideal.ofBits .f32 0x00000000#32 + _ = _
  rw [Ideal.ofBits_zero_f32, zero_add]
  refine Finset.sum_congr rfl fun k' _ => ?_
  have e : idx_main_v12 (ix1 r) k' = ix2 r k' := funext fun a => Fin.ext (by match a with | ⟨0, _⟩ => rfl | ⟨1, _⟩ => rfl)
  rw [e, numer_eq]

/-- THE REFERENCE'S RESULT is the gates of its arguments. -/
theorem result_eq : val_main_v15 (F := Ideal) x0 x1 x2 x3 = gate x0 x1 x2 x3 := by
  funext i
  obtain ⟨r, j, rfl⟩ : ∃ (r : Fin 8192) (j : Fin 64), i = ix2 r j := ⟨i 0, i 1, eq_ix2 i⟩
  rw [val_main_v15_apply, val_main_v14_apply, val_main_v13_apply, numer_eq]
  have e : idx_main_v13 (idx_main_v14 (ix2 r j)) = ix1 r := funext fun a => Fin.ext (by match a with | ⟨0, _⟩ => rfl)
  rw [e, denom_eq]
  rfl

end Cert.ReferenceIdeal.RefValue

end
-- ==== Proof.lean ====
/-
  The gating kernel against its reference: softmax(concat(x, z) · W + b) over 8192 tokens and 64 experts.

  The kernel never joins x and z: at each of 8 grid points it multiplies two half-blocks of 512 rows of x with the first
  3072 rows of W and the matching half-blocks of z with the last 768 rows, adds the two products and the bias, and stores
  the row softmax. The reference joins the rows and multiplies once. On the extended reals the two are one function:
  the sum over the 3840 joined columns is the sum over x's columns plus the sum over z's (addition is commutative and
  associative there, and nothing else is used), and the softmax is written the same way on both sides — the reference's
  extra maximum with −∞ changes nothing. No finiteness of the inputs is needed.

  The frames of both kernel programs come from the launch: two windows read the array x and two the array z, so each
  pair holds the array's two half shares, and the general frame run for shared arrays applies. The reference's frame is its run with
  the result dropped. The idealization rewrote nothing, so it is preserved trivially.
-/
import proofs.«109027_g46437186404428_cont_8to1_c_839_19_alg».proof.Defs
import proofs.«109027_g46437186404428_cont_8to1_c_839_19_alg».proof.Proof.Gen.Kernel
import proofs.«109027_g46437186404428_cont_8to1_c_839_19_alg».proof.Proof.Gen.Kernel.Skeleton
import proofs.«109027_g46437186404428_cont_8to1_c_839_19_alg».proof.Proof.Gen.Kernel.Launch
import proofs.«109027_g46437186404428_cont_8to1_c_839_19_alg».proof.Proof.Gen.Kernel.Points
import proofs.«109027_g46437186404428_cont_8to1_c_839_19_alg».proof.Proof.Gen.KernelIdeal
import proofs.«109027_g46437186404428_cont_8to1_c_839_19_alg».proof.Proof.Gen.KernelIdeal.Skeleton
import proofs.«109027_g46437186404428_cont_8to1_c_839_19_alg».proof.Proof.Gen.KernelIdeal.Launch
import proofs.«109027_g46437186404428_cont_8to1_c_839_19_alg».proof.Proof.Gen.KernelIdeal.Points
import proofs.«109027_g46437186404428_cont_8to1_c_839_19_alg».proof.Proof.Gen.ReferenceIdeal
import proofs.«109027_g46437186404428_cont_8to1_c_839_19_alg».proof.Proof.Gen.ReferenceIdeal.Run
import proofs.«109027_g46437186404428_cont_8to1_c_839_19_alg».proof.Proof.Gen.ReferenceIdeal.Read
import proofs.«109027_g46437186404428_cont_8to1_c_839_19_alg».proof.Proof.Gen.Pre_finite_inputs
import proofs.«109027_g46437186404428_cont_8to1_c_839_19_alg».proof.Proof.KernelLaunch
import proofs.«109027_g46437186404428_cont_8to1_c_839_19_alg».proof.Proof.KernelIdealLaunch
import proofs.«109027_g46437186404428_cont_8to1_c_839_19_alg».proof.Proof.KernelBlocks
import proofs.«109027_g46437186404428_cont_8to1_c_839_19_alg».proof.Proof.RefGate
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Launched.frame m ρ
theorem frame_ki : Cert.frame_KernelIdeal := fun m ρ _ => Cert.KernelIdeal.Launched.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the gates of arguments that agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
